-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S128x2048 : Shape := ⟨2, ![128, 2048]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S2048x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  natLt_1_32 : 1 < 32
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .f32 = 32 ∨ (Rect.block (s := S2048x2048) S2048x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S4096x2048.size a
  hwx0_6 : ∀ i : grid0.Coords, EltTy.bits .f32 = 32 ∨ (Rect.block (s := S4096x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S4096x2048.size a
  hwx0_7 : ∀ i : grid0.Coords, EltTy.bits .f32 = 32 ∨ (Rect.block (s := S4096x2048) S128x2048.size (cc0_transform_7 i) (hinb0_7 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S128x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .i1⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The update this certificate is about, stated once as mathematics over the extended reals, with no program in sight.

  Inputs: activations `x`, membrane potentials `u`, presynaptic traces `a` (all 4096 × 2048), a weight matrix `W`
  (2048 × 2048) and a bias vector `b` (2048). With `h = 1/2` and `θ = 1` written as the f32 words the programs carry:

    membrane  v[r, c] = (h · u[r, c] + Σ_k x[r, k] · W[k, c]) + b[c]
    spike     s[r, c] = 1 if θ ≤ v[r, c], else 0
    reset     v[r, c] − s[r, c] · θ
    trace     a[r, c] · h + x[r, c]

  The three results of the update are `reset`, `trace` and `spike`, in that order.
-/
import Idealize.ShloMosaic.PureOps.Ideal
import Idealize.ShloMosaic.PureOps.Ideal.Laws
import Idealize.ShloMosaic.Lib.ValueIdx

noncomputable section

namespace Cert.Ottt

open Idealize.ShloMosaic Idealize.ShloMosaic.ValueIdx

/-- batch × features -/
abbrev Act : Shape := ⟨2, ![4096, 2048]⟩
/-- in-features × out-features -/
abbrev Wt : Shape := ⟨2, ![2048, 2048]⟩
/-- out-features -/
abbrev Bias : Shape := ⟨1, ![2048]⟩

/-- The leak factor 1/2, as the f32 word both programs carry. -/
abbrev leak : EReal := Ideal.ofBits .f32 0x3F000000#32
/-- The firing threshold 1, as the f32 word both programs carry. -/
abbrev thr : EReal := Ideal.ofBits .f32 0x3F800000#32

/-- The membrane potential before the reset: the leaked old potential, plus row `r` of `x` against column `c` of `W`,
    plus the bias of column `c` — added in this order. -/
def membrane (x u : Act.Idx → EReal) (W : Wt.Idx → EReal) (b : Bias.Idx → EReal) : Act.Idx → EReal :=
  fun i => (leak * u i + ∑ k : Fin 2048, x (ix2 (i 0 : Fin 4096) k) * W (ix2 k (i 1 : Fin 2048))) + b (ix1 (i 1 : Fin 2048))

/-- The spike: the bit "threshold ≤ membrane" read as the number 0 or 1. -/
def spike (x u : Act.Idx → EReal) (W : Wt.Idx → EReal) (b : Bias.Idx → EReal) : Act.Idx → EReal :=
  fun i => (((Ideal.cmp .oge (membrane x u W b i) thr).toNat : ℝ) : EReal)

/-- The soft reset: the membrane potential less the threshold where a spike was emitted. -/
def reset (x u : Act.Idx → EReal) (W : Wt.Idx → EReal) (b : Bias.Idx → EReal) : Act.Idx → EReal :=
  fun i => membrane x u W b i - spike x u W b i * thr

/-- The eligibility trace: the leaked old trace plus the new activation. -/
def trace (x a : Act.Idx → EReal) : Act.Idx → EReal :=
  fun i => a i * leak + x i

/-- A one-bit word widened with zeros to 32 bits and then read as a SIGNED integer is the bit read as an unsigned one:
    the widened word is 0 or 1, far from the sign bit. So the two spellings of "the comparison's bit as a float" agree. -/
theorem signed_widened_bit_eq_unsigned_bit (b : BitVec 1) :
    FloatOps.sitofp (F := Ideal) .f32 (b.setWidth 32) = (((b.toNat : ℝ)) : EReal) := by
  show ((((b.setWidth 32).toInt : ℝ)) : EReal) = (((b.toNat : ℝ)) : EReal)
  have h : ∀ b : BitVec 1, (b.setWidth 32).toInt = (b.toNat : ℤ) := by decide
  rw [h b]
  norm_cast

end Cert.Ottt

end
-- ==== Proof.RefIsSpec.lean ====
/-
  The reference program's three results are the specification's three functions.

  The reference is a straight line of host operations; read one operation at a time at an index `i = (r, c)`:
  the product `x @ W` is the sum over the contracted coordinate `k` of `x[r, k] · W[k, c]`; the bias, first laid out as a
  one-row matrix and then copied down the rows, is `b[c]`; the constants are broadcast scalars. What is left is the
  specification's own expression, operation for operation, so each equation closes by unfolding.
-/
import proofs.«141764_j30940944400974_2_alg».proof.Proof.Spec
import proofs.«141764_j30940944400974_2_alg».proof.Proof.Gen.ReferenceIdeal.Read

noncomputable section

namespace Cert.Ottt.Ref

open Idealize.ShloMosaic Idealize.ShloMosaic.ValueIdx Cert.ReferenceIdeal Cert.ReferenceIdeal.Read Cert.Ottt

/-- The left factor's index in the product: row `r` of `x`, contracted coordinate `k`. -/
theorem lhs_index (i : Act.Idx) (k : Fin 2048) : lidx_main_v2 i k = ix2 (i 0 : Fin 4096) k :=
  funext fun a => Fin.ext (by match a with | ⟨0, _⟩ => rfl | ⟨1, _⟩ => rfl)

/-- The right factor's index: contracted coordinate `k`, column `c` of `W`. -/
theorem rhs_index (i : Act.Idx) (k : Fin 2048) : ridx_main_v2 i k = ix2 k (i 1 : Fin 2048) :=
  funext fun a => Fin.ext (by match a with | ⟨0, _⟩ => rfl | ⟨1, _⟩ => rfl)

/-- The bias entry that lands at `(r, c)` after the two broadcasts is `b[c]`. -/
theorem bias_index (i : Act.Idx) : idx_main_v4 (idx_main_v5 i) = ix1 (i 1 : Fin 2048) :=
  funext fun a => Fin.ext (by match a with | ⟨0, _⟩ => rfl)

/-- The reference's pre-reset sum is the membrane potential. -/
theorem membrane_eq (x u : Act.Idx → EReal) (W : Wt.Idx → EReal) (b : Bias.Idx → EReal) :
    val_main_v6 (F := Ideal) x u W b = membrane x u W b := by
  funext i
  rw [val_main_v6_apply, val_main_v3_apply, val_main_v1_apply, val_main_v0_apply, val_main_cst_apply, val_main_v2_apply,
    val_main_v5_apply, val_main_v4_apply]
  simp only [lhs_index, rhs_index, bias_index]
  rfl

/-- The reference's third result: the comparison's bit converted to a float is the spike. -/
theorem spike_eq (x u : Act.Idx → EReal) (W : Wt.Idx → EReal) (b : Bias.Idx → EReal) :
    val_main_v9 (F := Ideal) x u W b = spike x u W b := by
  funext i
  rw [val_main_v9_apply, val_main_v8_apply, val_main_v7_apply, val_main_cst_0_apply, membrane_eq]
  rfl

/-- The reference's first result: the membrane potential less spike times threshold is the reset. -/
theorem reset_eq (x u : Act.Idx → EReal) (W : Wt.Idx → EReal) (b : Bias.Idx → EReal) :
    val_main_v12 (F := Ideal) x u W b = reset x u W b := by
  funext i
  rw [val_main_v12_apply, val_main_v11_apply, val_main_v10_apply, val_main_cst_1_apply, spike_eq, membrane_eq]
  rfl

/-- The reference's second result is the trace. -/
theorem trace_eq (x a : Act.Idx → EReal) : val_main_v15 (F := Ideal) x a = trace x a := by
  funext i
  rw [val_main_v15_apply, val_main_v14_apply, val_main_v13_apply, val_main_cst_2_apply]
  rfl

end Cert.Ottt.Ref

end
-- ==== Proof.Payload.lean ====
/-
  What the kernel's body computes from the blocks it is given, read at one entry `(p, q)` of a 128 × 2048 block.

  The body sees a 128-row block of `x`, of `u` and of `a`, all of `W`, and the bias as a one-row matrix. At `(p, q)`:
  the block product is the sum over `k` of `xblock[p, k] · W[k, q]` (a product into a zero accumulator: the zero drops
  out); the one-row bias copied down the rows contributes `bias[0, q]`; the comparison's bit, widened and read as a signed
  integer, is the bit itself as a number. So the body's three stored values are the specification's expressions with
  "row p of the block" in place of "row r of the array".
-/
import proofs.«141764_j30940944400974_2_alg».proof.Proof.Spec
import proofs.«141764_j30940944400974_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Ottt.Body

open Idealize.ShloMosaic Idealize.ShloMosaic.ValueIdx Cert.KernelIdeal Cert.KernelIdeal.Gen Cert.Ottt

/-- Of the left factor's index for output entry `i` and contraction index `κ`, the row is `i`'s row … -/
theorem lhs_row (i : S128x2048.Idx) (κ : dot_S128x2048_S2048x2048_S128x2048_1_0_0_1_n_n.contr.Idx) :
    (dot_S128x2048_S2048x2048_S128x2048_1_0_0_1_n_n.lhsIdx i κ 0).val = (i 0).val := by
  unfold DotDims.lhsIdx
  rw [dif_neg (show ¬(0 : Fin S128x2048.rank) ∈ dot_S128x2048_S2048x2048_S128x2048_1_0_0_1_n_n.lhsBatch by decide),
    dif_pos (show (0 : Fin S128x2048.rank) ∈ dot_S128x2048_S2048x2048_S128x2048_1_0_0_1_n_n.lhsNonContracting by decide)]
  rfl
/-- … and the column is the contracted coordinate. -/
theorem lhs_col (i : S128x2048.Idx) (κ : dot_S128x2048_S2048x2048_S128x2048_1_0_0_1_n_n.contr.Idx) :
    (dot_S128x2048_S2048x2048_S128x2048_1_0_0_1_n_n.lhsIdx i κ 1).val = (κ ⟨0, by decide⟩).val :=
  dot_S128x2048_S2048x2048_S128x2048_1_0_0_1_n_n.lhsIdx_val_of_single rfl i κ
/-- Of the right factor's index, the row is the contracted coordinate … -/
theorem rhs_row (i : S128x2048.Idx) (κ : dot_S128x2048_S2048x2048_S128x2048_1_0_0_1_n_n.contr.Idx) :
    (dot_S128x2048_S2048x2048_S128x2048_1_0_0_1_n_n.rhsIdx i κ 0).val = (κ ⟨0, by decide⟩).val :=
  dot_S128x2048_S2048x2048_S128x2048_1_0_0_1_n_n.rhsIdx_val_of_single rfl i κ
/-- … and the column is `i`'s column. -/
theorem rhs_col (i : S128x2048.Idx) (κ : dot_S128x2048_S2048x2048_S128x2048_1_0_0_1_n_n.contr.Idx) :
    (dot_S128x2048_S2048x2048_S128x2048_1_0_0_1_n_n.rhsIdx i κ 1).val = (i 1).val := by
  unfold DotDims.rhsIdx
  rw [dif_neg (show ¬(1 : Fin S2048x2048.rank) ∈ dot_S128x2048_S2048x2048_S128x2048_1_0_0_1_n_n.rhsBatch by decide),
    dif_pos (show (1 : Fin S2048x2048.rank) ∈ dot_S128x2048_S2048x2048_S128x2048_1_0_0_1_n_n.rhsNonContracting by decide)]
  rfl

/-- The block product at `(p, q)`: row `p` of the left block against column `q` of the weights. The contraction runs
    over one axis of extent 2048, re-indexed by its one coordinate. -/
theorem blockProduct_apply (x0 : Vec Ideal S128x2048 .f32) (x3 : Vec Ideal S2048x2048 .f32) (p : Fin 128) (q : Fin 2048) :
    matmul (F := Ideal) (φ₁ := .f32) (φ₂ := .f32) dot_S128x2048_S2048x2048_S128x2048_1_0_0_1_n_n (some .fp32) x0 x3 (constant (F := Ideal) S128x2048 .f32 0x00000000#32) (ix2 p q)
      = ∑ k : Fin 2048, x0 (ix2 p k) * x3 (ix2 k q) := by
  show FloatOps.matmul (F := Ideal) (φ₁ := .f32) (φ₂ := .f32) dot_S128x2048_S2048x2048_S128x2048_1_0_0_1_n_n (some .fp32) x0 x3 (constant (F := Ideal) S128x2048 .f32 0x00000000#32) (ix2 p q) = _
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k :=
    funext fun a => Fin.ext (by
      match a with
      | ⟨0, _⟩ => exact lhs_row _ _
      | ⟨1, _⟩ => exact (lhs_col _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q :=
    funext fun a => Fin.ext (by
      match a with
      | ⟨0, _⟩ => exact (rhs_row _ _).trans hk
      | ⟨1, _⟩ => exact rhs_col _ _)
  rw [el, er]

/-- The one-row bias copied down the 128 rows: entry `(p, q)` is the row's entry `q`. -/
theorem biasRows_apply (x4 : Vec Ideal S1x2048 .f32) (p : Fin 128) (q : Fin 2048) :
    broadcastTo S128x2048 x4 broadcasts_S1x2048_S128x2048 (ix2 p q) = x4 (ix2 (0 : Fin 1) q) :=
  broadcastTo_apply x4 broadcasts_S1x2048_S128x2048 (ix2 p q) (ix2 (0 : Fin 1) q) (fun a => by
    match a with
    | ⟨0, _⟩ => rfl
    | ⟨1, _⟩ => show q.val = if (2048 : Nat) = 1 then 0 else q.val; rw [if_neg (by decide)])

/-- The body's pre-reset sum at `(p, q)`. -/
theorem membrane_block (x0 x1 : Vec Ideal S128x2048 .f32) (x3 : Vec Ideal S2048x2048 .f32) (x4 : Vec Ideal S1x2048 .f32)
    (p : Fin 128) (q : Fin 2048) :
    k0_pay1 x0 x1 x3 x4 (ix2 p q)
      = (leak * x1 (ix2 p q) + ∑ k : Fin 2048, x0 (ix2 p k) * x3 (ix2 k q)) + x4 (ix2 (0 : Fin 1) q) := by
  unfold k0_pay1
  rw [shapeCast_self]
  show (leak * x1 (ix2 p q)
      + matmul (F := Ideal) (φ₁ := .f32) (φ₂ := .f32) dot_S128x2048_S2048x2048_S128x2048_1_0_0_1_n_n (some .fp32) x0 x3 (constant (F := Ideal) S128x2048 .f32 0x00000000#32) (ix2 p q))
      + broadcastTo S128x2048 x4 broadcasts_S1x2048_S128x2048 (ix2 p q) = _
  rw [blockProduct_apply, biasRows_apply]

/-- The body's spike at `(p, q)`: the bit "threshold ≤ membrane" as the number 0 or 1. -/
theorem spike_block (x0 x1 : Vec Ideal S128x2048 .f32) (x3 : Vec Ideal S2048x2048 .f32) (x4 : Vec Ideal S1x2048 .f32)
    (p : Fin 128) (q : Fin 2048) :
    k0_pay2 x0 x1 x3 x4 (ix2 p q)
      = (((Ideal.cmp .oge (k0_pay1 x0 x1 x3 x4 (ix2 p q)) thr).toNat : ℝ) : EReal) := by
  unfold k0_pay2
  exact signed_widened_bit_eq_unsigned_bit _

/-- The body's reset value at `(p, q)`. -/
theorem reset_block (x0 x1 : Vec Ideal S128x2048 .f32) (x3 : Vec Ideal S2048x2048 .f32) (x4 : Vec Ideal S1x2048 .f32)
    (p : Fin 128) (q : Fin 2048) :
    k0_pay3 x0 x1 x3 x4 (ix2 p q)
      = k0_pay1 x0 x1 x3 x4 (ix2 p q) - k0_pay2 x0 x1 x3 x4 (ix2 p q) * thr := by
  unfold k0_pay3
  rfl

/-- The body's trace value at an entry. -/
theorem trace_block (x0 x2 : Vec Ideal S128x2048 .f32) (j : S128x2048.Idx) :
    k0_pay4 x0 x2 j = x2 j * leak + x0 j := by
  unfold k0_pay4
  rfl

end Cert.Ottt.Body

end
-- ==== Proof.Blocks.lean ====
/-
  From what each grid point writes back to the three result arrays as whole functions of the arguments.

  The grid has 32 points. At point `t` the kernel's windows hand the body rows `128·t … 128·t + 127` of `x`, `u` and `a`,
  all of `W`, and the one-row bias; the three results' blocks at `t` are the same 128 rows of the three result arrays. So
  entry `(p, q)` of a block is entry `(128·t + p, q)` of its array, and what the body stores at `(p, q)` — the
  specification's expressions over "row p of the block" — is the specification at `(128·t + p, q)`. The 32 row bands
  tile the 4096 rows: row `r` is in the band of point `r / 128`. Hence each result array ends holding the specification
  everywhere. The bias reaches the kernel as a 1 × 2048 matrix made on the host from the bias vector; its entry `(0, q)`
  is the vector's entry `q`.
-/
import proofs.«141764_j30940944400974_2_alg».proof.Proof.Spec
import proofs.«141764_j30940944400974_2_alg».proof.Proof.Payload
import proofs.«141764_j30940944400974_2_alg».proof.Proof.Gen.KernelIdeal.Value
import Idealize.ShloMosaic.Lib.Pipeline.Value
import Idealize.ShloMosaic.Lib.ValueLayout
import Idealize.ShloMosaic.Lib.StableHlo.Run

noncomputable section

namespace Cert.Ottt.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Ottt Cert.Ottt.Body

variable (m : (ℓ : Loc nD τ sig) → Buf (Elt Ideal) ℓ) (ρ : Dev nD → PrngReg)

theorem hz : (![0, 0] : Fin 2 → Nat) = fun _ => 0 := funext fun a => by fin_cases a <;> rfl

/-- The index maps over the 32 grid points: the three row-banded inputs and the three outputs are at block row `t`,
    block column 0; the weights and the bias row are always at block (0, 0). -/
theorem index_maps : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem point_lt (t : Fin cfg0.N) : t.val < 32 := Nat.lt_of_lt_of_eq t.isLt N_0

/-! ## The input blocks as rows of the arrays the region finds -/

/-- Entry `(p, k)` of the block of `x` at point `t` is entry `(128·t + p, k)` of `x`. -/
theorem xBlock_apply (c : Dev nD) (t : Fin cfg0.N) (p : Fin 128) (k : Fin 2048) (r : Fin 4096) (hr : r.val = 128 * t.val + p.val) :
    (iblk m c 0 t : Vec Ideal S128x2048 .f32) (ix2 p k) = (V m c main_arg0 : S4096x2048.Idx → EReal) (ix2 r k) := by
  obtain ⟨⟨e0, e1⟩, -⟩ := index_maps t
  unfold iblk
  rw [View.read_apply]
  show (V m c main_arg0 : S4096x2048.Idx → EReal) _ = _
  refine congrArg _ (funext fun a => Fin.ext ?_)
  match a with
  | ⟨0, _⟩ => show win0_0.index t (0 : Fin 2) * 128 + 1 * p.val = r.val; omega
  | ⟨1, _⟩ => show win0_0.index t (1 : Fin 2) * 2048 + 1 * k.val = k.val; omega

/-- Entry `(p, q)` of the block of `u` at point `t` is entry `(128·t + p, q)` of `u`. -/
theorem uBlock_apply (c : Dev nD) (t : Fin cfg0.N) (p : Fin 128) (q : Fin 2048) (r : Fin 4096) (hr : r.val = 128 * t.val + p.val) :
    (iblk m c 1 t : Vec Ideal S128x2048 .f32) (ix2 p q) = (V m c main_arg1 : S4096x2048.Idx → EReal) (ix2 r q) := by
  obtain ⟨-, ⟨e0, e1⟩, -⟩ := index_maps t
  unfold iblk
  rw [View.read_apply]
  show (V m c main_arg1 : S4096x2048.Idx → EReal) _ = _
  refine congrArg _ (funext fun a => Fin.ext ?_)
  match a with
  | ⟨0, _⟩ => show win0_1.index t (0 : Fin 2) * 128 + 1 * p.val = r.val; omega
  | ⟨1, _⟩ => show win0_1.index t (1 : Fin 2) * 2048 + 1 * q.val = q.val; omega

/-- Entry `(p, q)` of the block of `a` at point `t` is entry `(128·t + p, q)` of `a`. -/
theorem aBlock_apply (c : Dev nD) (t : Fin cfg0.N) (p : Fin 128) (q : Fin 2048) (r : Fin 4096) (hr : r.val = 128 * t.val + p.val) :
    (iblk m c 2 t : Vec Ideal S128x2048 .f32) (ix2 p q) = (V m c main_arg2 : S4096x2048.Idx → EReal) (ix2 r q) := by
  obtain ⟨-, -, ⟨e0, e1⟩, -⟩ := index_maps t
  unfold iblk
  rw [View.read_apply]
  show (V m c main_arg2 : S4096x2048.Idx → EReal) _ = _
  refine congrArg _ (funext fun a => Fin.ext ?_)
  match a with
  | ⟨0, _⟩ => show win0_2.index t (0 : Fin 2) * 128 + 1 * p.val = r.val; omega
  | ⟨1, _⟩ => show win0_2.index t (1 : Fin 2) * 2048 + 1 * q.val = q.val; omega

/-- The weights' block at every point is the whole matrix. -/
theorem wBlock_apply (c : Dev nD) (t : Fin cfg0.N) (k q : Fin 2048) :
    (iblk m c 3 t : Vec Ideal S2048x2048 .f32) (ix2 k q) = (V m c main_arg3 : S2048x2048.Idx → EReal) (ix2 k q) := by
  obtain ⟨-, -, -, ⟨e0, e1⟩, -⟩ := index_maps t
  unfold iblk
  rw [View.read_apply]
  show (V m c main_arg3 : S2048x2048.Idx → EReal) _ = _
  refine congrArg _ (funext fun a => Fin.ext ?_)
  match a with
  | ⟨0, _⟩ => show win0_3.index t (0 : Fin 2) * 2048 + 1 * k.val = k.val; omega
  | ⟨1, _⟩ => show win0_3.index t (1 : Fin 2) * 2048 + 1 * q.val = q.val; omega

/-- The bias row's block at every point is the whole one-row matrix. -/
theorem biasBlock_apply (c : Dev nD) (t : Fin cfg0.N) (q : Fin 2048) :
    (iblk m c 4 t : Vec Ideal S1x2048 .f32) (ix2 (0 : Fin 1) q) = (V m c main_v0 : S1x2048.Idx → EReal) (ix2 (0 : Fin 1) q) := by
  obtain ⟨-, -, -, -, ⟨e0, e1⟩, -⟩ := index_maps t
  unfold iblk
  rw [View.read_apply]
  show (V m c main_v0 : S1x2048.Idx → EReal) _ = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * q.val = q.val; omega

/-- The one-row bias matrix the region finds is the bias vector reshaped: entry `(0, q)` is the vector's entry `q`. -/
theorem biasRow_apply (c : Dev nD) (q : Fin 2048) :
    (V m c main_v0 : S1x2048.Idx → EReal) (ix2 (0 : Fin 1) q) = (m ((c : Thread nD τ).loc main_arg4) : S2048.Idx → EReal) (ix1 q) := by
  have e : (V m c main_v0 : S1x2048.Idx → EReal)
      = shapeCast S1x2048 (m ((c : Thread nD τ).loc main_arg4) : S2048.Idx → EReal) shapeCasts_S2048_S1x2048 := by
    dsimp only [V, hostOps0]; after_results; rfl
  rw [e]
  exact shapeCast_a_1a_apply _ _ (0 : Fin 1) q

end Cert.Ottt.Kernel

end
-- ==== Proof.Arrays.lean ====
/-
  The three result arrays after the kernel's run, each as one function of the argument arrays.

  What a point stores at `(p, q)` of a result block is the specification at `(128·t + p, q)`: the body's expressions
  over the point's blocks, with each block entry replaced by the array entry it is. The blocks of the 32 points are the
  32 bands of 128 rows, which tile the 4096 rows; so each array ends holding the specification at every index.
-/
import proofs.«141764_j30940944400974_2_alg».proof.Proof.Blocks

noncomputable section

namespace Cert.Ottt.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Ottt Cert.Ottt.Body

variable (m : (ℓ : Loc nD τ sig) → Buf (Elt Ideal) ℓ) (ρ : Dev nD → PrngReg)

/-! ## What one point computes, in terms of the arrays -/

/-- The body's pre-reset sum at `(p, q)` of point `t` is the membrane potential at `(128·t + p, q)`. -/
theorem membrane_point (c : Dev nD) (t : Fin cfg0.N) (p : Fin 128) (q : Fin 2048) (r : Fin 4096) (hr : r.val = 128 * t.val + p.val) :
    k0_pay1 (iblk m c 0 t) (iblk m c 1 t) (iblk m c 3 t) (iblk m c 4 t) (ix2 p q)
      = membrane (m ((c : Thread nD τ).loc main_arg0)) (m ((c : Thread nD τ).loc main_arg1)) (m ((c : Thread nD τ).loc main_arg3)) (m ((c : Thread nD τ).loc main_arg4)) (ix2 r q) := by
  refine (membrane_block (iblk m c 0 t) (iblk m c 1 t) (iblk m c 3 t) (iblk m c 4 t) p q).trans ?_
  rw [uBlock_apply m c t p q r hr, biasBlock_apply m c t q, biasRow_apply m c q]
  simp only [xBlock_apply m c t p _ r hr, wBlock_apply m c t]
  rw [V_main_arg0, V_main_arg1, V_main_arg3]
  rfl

/-- The body's spike there is the spike at `(128·t + p, q)`. -/
theorem spike_point (c : Dev nD) (t : Fin cfg0.N) (p : Fin 128) (q : Fin 2048) (r : Fin 4096) (hr : r.val = 128 * t.val + p.val) :
    k0_pay2 (iblk m c 0 t) (iblk m c 1 t) (iblk m c 3 t) (iblk m c 4 t) (ix2 p q)
      = spike (m ((c : Thread nD τ).loc main_arg0)) (m ((c : Thread nD τ).loc main_arg1)) (m ((c : Thread nD τ).loc main_arg3)) (m ((c : Thread nD τ).loc main_arg4)) (ix2 r q) := by
  refine (spike_block (iblk m c 0 t) (iblk m c 1 t) (iblk m c 3 t) (iblk m c 4 t) p q).trans ?_
  rw [membrane_point m c t p q r hr]
  rfl

/-- The body's reset value there is the reset at `(128·t + p, q)`. -/
theorem reset_point (c : Dev nD) (t : Fin cfg0.N) (p : Fin 128) (q : Fin 2048) (r : Fin 4096) (hr : r.val = 128 * t.val + p.val) :
    k0_pay3 (iblk m c 0 t) (iblk m c 1 t) (iblk m c 3 t) (iblk m c 4 t) (ix2 p q)
      = reset (m ((c : Thread nD τ).loc main_arg0)) (m ((c : Thread nD τ).loc main_arg1)) (m ((c : Thread nD τ).loc main_arg3)) (m ((c : Thread nD τ).loc main_arg4)) (ix2 r q) := by
  refine (reset_block (iblk m c 0 t) (iblk m c 1 t) (iblk m c 3 t) (iblk m c 4 t) p q).trans ?_
  rw [membrane_point m c t p q r hr, spike_point m c t p q r hr]
  rfl

/-- The body's trace value there is the trace at `(128·t + p, q)`. -/
theorem trace_point (c : Dev nD) (t : Fin cfg0.N) (p : Fin 128) (q : Fin 2048) (r : Fin 4096) (hr : r.val = 128 * t.val + p.val) :
    k0_pay4 (iblk m c 0 t) (iblk m c 2 t) (ix2 p q)
      = trace (m ((c : Thread nD τ).loc main_arg0)) (m ((c : Thread nD τ).loc main_arg2)) (ix2 r q) := by
  refine (trace_block (iblk m c 0 t) (iblk m c 2 t) (ix2 p q)).trans ?_
  rw [aBlock_apply m c t p q r hr, xBlock_apply m c t p q r hr, V_main_arg0, V_main_arg2]
  rfl

/-! ## The result blocks are the row bands, and the bands tile the rows -/

/-- A row-and-column index lies in point `t`'s block of result 0 iff each coordinate lies in the block's range. -/
theorem mem_band5 (t : Fin cfg0.N) (i : S4096x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v1_0).slice (win0_5.rect t)).set ↔ _
  rw [View.set_slice_whole, Rect.mem_set_unit]
  exact Iff.rfl

/-- Every index is in the band of the point its row selects: row `r` belongs to point `r / 128`. -/
theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  have hN : (i 0).val / 128 < cfg0.N := Nat.lt_of_lt_of_eq (show (i 0).val / 128 < 32 by omega) N_0.symm
  obtain ⟨-, -, -, -, -, ⟨e5, e5'⟩, ⟨e6, e6'⟩, ⟨e7, e7'⟩⟩ := index_maps ⟨(i 0).val / 128, hN⟩
  refine ⟨⟨(i 0).val / 128, hN⟩, flush0_5 _, ?_⟩
  rw [mem_band5]
  intro a
  match a with
  | ⟨0, _⟩ =>
    show win0_5.index ⟨(i 0).val / 128, hN⟩ (0 : Fin 2) * 128 ≤ (i 0).val ∧ (i 0).val < win0_5.index ⟨(i 0).val / 128, hN⟩ (0 : Fin 2) * 128 + 128
    rw [e5]; show (i 0).val / 128 * 128 ≤ (i 0).val ∧ (i 0).val < (i 0).val / 128 * 128 + 128; omega
  | ⟨1, _⟩ =>
    show win0_5.index ⟨(i 0).val / 128, hN⟩ (1 : Fin 2) * 2048 ≤ (i 1).val ∧ (i 1).val < win0_5.index ⟨(i 0).val / 128, hN⟩ (1 : Fin 2) * 2048 + 2048
    rw [e5']; omega

/-- Entry `(p, q)` of result 0's block at point `t` is entry `(128·t + p, q)` of the result array. -/
theorem outBlock5_emb (t : Fin cfg0.N) (p : Fin 128) (q : Fin 2048) (r : Fin 4096) (hr : r.val = 128 * t.val + p.val) :
    ((cfg0.win 5).blk t).view.emb (ix2 p q) = (ix2 r q : S4096x2048.Idx) := by
  obtain ⟨-, -, -, -, -, ⟨e5, e5'⟩, ⟨e6, e6'⟩, ⟨e7, e7'⟩⟩ := index_maps t
  refine funext fun a => Fin.ext ?_
  match a with
  | ⟨0, _⟩ => show win0_5.index t (0 : Fin 2) * 128 + 1 * p.val = r.val; omega
  | ⟨1, _⟩ => show win0_5.index t (1 : Fin 2) * 2048 + 1 * q.val = q.val; omega

/-- A row-and-column index lies in point `t`'s block of result 1 iff each coordinate lies in the block's range. -/
theorem mem_band6 (t : Fin cfg0.N) (i : S4096x2048.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v1_1).slice (win0_6.rect t)).set ↔ _
  rw [View.set_slice_whole, Rect.mem_set_unit]
  exact Iff.rfl

/-- Every index is in the band of the point its row selects: row `r` belongs to point `r / 128`. -/
theorem cover6 (i : S4096x2048.Idx) : ∃ t : Fin cfg0.N, (cfg0.win 6).flush t = true ∧ i ∈ ((cfg0.win 6).blk t).view.set := by
  have h0 : (i 0).val < 4096 := (i 0).isLt
  have h1 : (i 1).val < 2048 := (i 1).isLt
  have hN : (i 0).val / 128 < cfg0.N := Nat.lt_of_lt_of_eq (show (i 0).val / 128 < 32 by omega) N_0.symm
  obtain ⟨-, -, -, -, -, ⟨e5, e5'⟩, ⟨e6, e6'⟩, ⟨e7, e7'⟩⟩ := index_maps ⟨(i 0).val / 128, hN⟩
  refine ⟨⟨(i 0).val / 128, hN⟩, flush0_6 _, ?_⟩
  rw [mem_band6]
  intro a
  match a with
  | ⟨0, _⟩ =>
    show win0_6.index ⟨(i 0).val / 128, hN⟩ (0 : Fin 2) * 128 ≤ (i 0).val ∧ (i 0).val < win0_6.index ⟨(i 0).val / 128, hN⟩ (0 : Fin 2) * 128 + 128
    rw [e6]; show (i 0).val / 128 * 128 ≤ (i 0).val ∧ (i 0).val < (i 0).val / 128 * 128 + 128; omega
  | ⟨1, _⟩ =>
    show win0_6.index ⟨(i 0).val / 128, hN⟩ (1 : Fin 2) * 2048 ≤ (i 1).val ∧ (i 1).val < win0_6.index ⟨(i 0).val / 128, hN⟩ (1 : Fin 2) * 2048 + 2048
    rw [e6']; omega

/-- Entry `(p, q)` of result 1's block at point `t` is entry `(128·t + p, q)` of the result array. -/
theorem outBlock6_emb (t : Fin cfg0.N) (p : Fin 128) (q : Fin 2048) (r : Fin 4096) (hr : r.val = 128 * t.val + p.val) :
    ((cfg0.win 6).blk t).view.emb (ix2 p q) = (ix2 r q : S4096x2048.Idx) := by
  obtain ⟨-, -, -, -, -, ⟨e5, e5'⟩, ⟨e6, e6'⟩, ⟨e7, e7'⟩⟩ := index_maps t
  refine funext fun a => Fin.ext ?_
  match a with
  | ⟨0, _⟩ => show win0_6.index t (0 : Fin 2) * 128 + 1 * p.val = r.val; omega
  | ⟨1, _⟩ => show win0_6.index t (1 : Fin 2) * 2048 + 1 * q.val = q.val; omega

/-- A row-and-column index lies in point `t`'s block of result 2 iff each coordinate lies in the block's range. -/
theorem mem_band7 (t : Fin cfg0.N) (i : S4096x2048.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v1_2).slice (win0_7.rect t)).set ↔ _
  rw [View.set_slice_whole, Rect.mem_set_unit]
  exact Iff.rfl

/-- Every index is in the band of the point its row selects: row `r` belongs to point `r / 128`. -/
theorem cover7 (i : S4096x2048.Idx) : ∃ t : Fin cfg0.N, (cfg0.win 7).flush t = true ∧ i ∈ ((cfg0.win 7).blk t).view.set := by
  have h0 : (i 0).val < 4096 := (i 0).isLt
  have h1 : (i 1).val < 2048 := (i 1).isLt
  have hN : (i 0).val / 128 < cfg0.N := Nat.lt_of_lt_of_eq (show (i 0).val / 128 < 32 by omega) N_0.symm
  obtain ⟨-, -, -, -, -, ⟨e5, e5'⟩, ⟨e6, e6'⟩, ⟨e7, e7'⟩⟩ := index_maps ⟨(i 0).val / 128, hN⟩
  refine ⟨⟨(i 0).val / 128, hN⟩, flush0_7 _, ?_⟩
  rw [mem_band7]
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    rw [e7]; show (i 0).val / 128 * 128 ≤ (i 0).val ∧ (i 0).val < (i 0).val / 128 * 128 + 128; omega
  | ⟨1, _⟩ =>
    show win0_7.index ⟨(i 0).val / 128, hN⟩ (1 : Fin 2) * 2048 ≤ (i 1).val ∧ (i 1).val < win0_7.index ⟨(i 0).val / 128, hN⟩ (1 : Fin 2) * 2048 + 2048
    rw [e7']; omega

/-- Entry `(p, q)` of result 2's block at point `t` is entry `(128·t + p, q)` of the result array. -/
theorem outBlock7_emb (t : Fin cfg0.N) (p : Fin 128) (q : Fin 2048) (r : Fin 4096) (hr : r.val = 128 * t.val + p.val) :
    ((cfg0.win 7).blk t).view.emb (ix2 p q) = (ix2 r q : S4096x2048.Idx) := by
  obtain ⟨-, -, -, -, -, ⟨e5, e5'⟩, ⟨e6, e6'⟩, ⟨e7, e7'⟩⟩ := index_maps t
  refine funext fun a => Fin.ext ?_
  match a with
  | ⟨0, _⟩ => show win0_7.index t (0 : Fin 2) * 128 + 1 * p.val = r.val; omega
  | ⟨1, _⟩ => show win0_7.index t (1 : Fin 2) * 2048 + 1 * q.val = q.val; omega

/-! ## What each point writes back -/

/-- What point `t` writes back to result 0 is the `reset` of the arguments, read through the point's block. -/
theorem reset_flushed (c : Dev nD) (t : Fin cfg0.N) :
    (dats m 0 c).flushed 5 t = ((cfg0.win 5).blk t).view.read (Elt Ideal) (reset (m ((c : Thread nD τ).loc main_arg0)) (m ((c : Thread nD τ).loc main_arg1)) (m ((c : Thread nD τ).loc main_arg3)) (m ((c : Thread nD τ).loc main_arg4))) := by
  rw [flushed5]
  unfold out0_5
  rw [View.canon_unit_zero hz]
  simp only [View.ld_unit_zero (S := S128x2048) hz, View.ld_unit_zero (S := S2048x2048) hz, View.ld_unit_zero (S := S1x2048) hz]
  funext j
  obtain ⟨p, q, rfl⟩ : ∃ (p : Fin 128) (q : Fin 2048), j = ix2 p q := ⟨j 0, j 1, eq_ix2 j⟩
  have ht := point_lt t
  have hr : 128 * t.val + p.val < 4096 := by have := p.isLt; omega
  rw [View.read_apply, outBlock5_emb t p q ⟨128 * t.val + p.val, hr⟩ rfl]
  show k0_pay3 (iblk m c 0 t) (iblk m c 1 t) (iblk m c 3 t) (iblk m c 4 t) (ix2 p q) = _
  exact reset_point m c t p q ⟨128 * t.val + p.val, hr⟩ rfl

/-- What point `t` writes back to result 1 is the `trace` of the arguments, read through the point's block. -/
theorem trace_flushed (c : Dev nD) (t : Fin cfg0.N) :
    (dats m 0 c).flushed 6 t = ((cfg0.win 6).blk t).view.read (Elt Ideal) (trace (m ((c : Thread nD τ).loc main_arg0)) (m ((c : Thread nD τ).loc main_arg2))) := by
  rw [flushed6]
  unfold out0_6
  rw [View.canon_unit_zero hz]
  simp only [View.ld_unit_zero (S := S128x2048) hz, View.ld_unit_zero (S := S2048x2048) hz, View.ld_unit_zero (S := S1x2048) hz]
  funext j
  obtain ⟨p, q, rfl⟩ : ∃ (p : Fin 128) (q : Fin 2048), j = ix2 p q := ⟨j 0, j 1, eq_ix2 j⟩
  have ht := point_lt t
  have hr : 128 * t.val + p.val < 4096 := by have := p.isLt; omega
  rw [View.read_apply, outBlock6_emb t p q ⟨128 * t.val + p.val, hr⟩ rfl]
  show k0_pay4 (iblk m c 0 t) (iblk m c 2 t) (ix2 p q) = _
  exact trace_point m c t p q ⟨128 * t.val + p.val, hr⟩ rfl

/-- What point `t` writes back to result 2 is the `spike` of the arguments, read through the point's block. -/
theorem spike_flushed (c : Dev nD) (t : Fin cfg0.N) :
    (dats m 0 c).flushed 7 t = ((cfg0.win 7).blk t).view.read (Elt Ideal) (spike (m ((c : Thread nD τ).loc main_arg0)) (m ((c : Thread nD τ).loc main_arg1)) (m ((c : Thread nD τ).loc main_arg3)) (m ((c : Thread nD τ).loc main_arg4))) := by
  rw [flushed7]
  unfold out0_7
  rw [View.canon_unit_zero hz]
  simp only [View.ld_unit_zero (S := S128x2048) hz, View.ld_unit_zero (S := S2048x2048) hz, View.ld_unit_zero (S := S1x2048) hz]
  funext j
  obtain ⟨p, q, rfl⟩ : ∃ (p : Fin 128) (q : Fin 2048), j = ix2 p q := ⟨j 0, j 1, eq_ix2 j⟩
  have ht := point_lt t
  have hr : 128 * t.val + p.val < 4096 := by have := p.isLt; omega
  rw [View.read_apply, outBlock7_emb t p q ⟨128 * t.val + p.val, hr⟩ rfl]
  show k0_pay2 (iblk m c 0 t) (iblk m c 1 t) (iblk m c 3 t) (iblk m c 4 t) (ix2 p q) = _
  exact spike_point m c t p q ⟨128 * t.val + p.val, hr⟩ rfl

/-! ## The arrays after the run -/

/-- The first result array ends holding the reset. -/
theorem reset_final (c : Dev nD) : (dats m 0 c).arrAt 5 cfg0.N = reset (m ((c : Thread nD τ).loc main_arg0)) (m ((c : Thread nD τ).loc main_arg1)) (m ((c : Thread nD τ).loc main_arg3)) (m ((c : Thread nD τ).loc main_arg4)) :=
  (dats m 0 c).arrAt_eq_of_cover 5 _ (fun t _ => reset_flushed m c t) cover5

/-- The second result array ends holding the trace. -/
theorem trace_final (c : Dev nD) : (dats m 0 c).arrAt 6 cfg0.N = trace (m ((c : Thread nD τ).loc main_arg0)) (m ((c : Thread nD τ).loc main_arg2)) :=
  (dats m 0 c).arrAt_eq_of_cover 6 _ (fun t _ => trace_flushed m c t) cover6

/-- The third result array ends holding the spike. -/
theorem spike_final (c : Dev nD) : (dats m 0 c).arrAt 7 cfg0.N = spike (m ((c : Thread nD τ).loc main_arg0)) (m ((c : Thread nD τ).loc main_arg1)) (m ((c : Thread nD τ).loc main_arg3)) (m ((c : Thread nD τ).loc main_arg4)) :=
  (dats m 0 c).arrAt_eq_of_cover 7 _ (fun t _ => spike_flushed m c t) cover7

/-- The kernel's run: every weakly fair execution terminates with the three result arrays at the reset, the trace and the
    spike of the argument arrays, and the arguments unchanged. -/
theorem run : θ_run defs (onTc (τ := τ) (main (F := Ideal))) ⟨m, fun _ => 0, ρ⟩ fun r => ∀ c : Dev nD,
      r.2.mem ((c : Thread nD τ).loc main_v1_0) = reset (m ((c : Thread nD τ).loc main_arg0)) (m ((c : Thread nD τ).loc main_arg1)) (m ((c : Thread nD τ).loc main_arg3)) (m ((c : Thread nD τ).loc main_arg4))
      ∧ r.2.mem ((c : Thread nD τ).loc main_v1_1) = trace (m ((c : Thread nD τ).loc main_arg0)) (m ((c : Thread nD τ).loc main_arg2))
      ∧ r.2.mem ((c : Thread nD τ).loc main_v1_2) = spike (m ((c : Thread nD τ).loc main_arg0)) (m ((c : Thread nD τ).loc main_arg1)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (reset_final m c), (h c).2.1.trans (trace_final m c),
      (h c).2.2.1.trans (spike_final m c), (h c).2.2.2⟩)
    (run_blocks m ρ)

end Cert.Ottt.Kernel

end
-- ==== Proof.lean ====
/-
  A one-step update of a layer of leaky integrate-and-fire neurons with an eligibility trace, as a tiled kernel and as a
  plain array program: both compute, from activations `x`, membrane potentials `u`, traces `a`, weights `W` and bias `b`,

    v = (½·u + x·W) + b,   s = [1 ≤ v],   results (v − s·1,  a·½ + x,  s).

  Over the extended reals the two programs are the same expression, operation for operation and in the same order of
  additions, so no law of arithmetic is needed and the finiteness of the inputs is never used. What differs is layout and
  spelling: the kernel works on 32 bands of 128 rows and multiplies a band of `x` by all of `W` into a zero accumulator,
  where the reference multiplies the whole arrays (the same sum over the contracted coordinate, entry by entry); the kernel
  receives the bias as a one-row matrix copied down the rows, the reference broadcasts the vector (the same entry `b[c]`);
  the kernel turns the comparison's bit into a float by widening it and reading it as a signed integer, the reference by
  reading the bit as an unsigned one (the same 0 or 1).

  Proof/Spec.lean states the three results as functions of the arguments; Proof/RefIsSpec.lean shows the reference's run
  ends at them; Proof/Payload.lean reads the kernel body at one entry of a band; Proof/Blocks.lean reads a band's entries
  as the arrays' entries; Proof/Arrays.lean puts the 32 bands together into the kernel's run. Here the five claims are
  assembled: the three programs run and leave their arguments alone, the idealized kernel is the kernel's own text (nothing
  was rewritten, so nothing is owed), and the two idealized programs end at equal results.
-/
import proofs.«141764_j30940944400974_2_alg».proof.Defs
import proofs.«141764_j30940944400974_2_alg».proof.Proof.Gen.Kernel
import proofs.«141764_j30940944400974_2_alg».proof.Proof.Gen.Kernel.Skeleton
import proofs.«141764_j30940944400974_2_alg».proof.Proof.Gen.Kernel.Launch
import proofs.«141764_j30940944400974_2_alg».proof.Proof.Gen.Kernel.Points
import proofs.«141764_j30940944400974_2_alg».proof.Proof.Gen.Kernel.Frame
import proofs.«141764_j30940944400974_2_alg».proof.Proof.Gen.KernelIdeal
import proofs.«141764_j30940944400974_2_alg».proof.Proof.Gen.KernelIdeal.Skeleton
import proofs.«141764_j30940944400974_2_alg».proof.Proof.Gen.KernelIdeal.Launch
import proofs.«141764_j30940944400974_2_alg».proof.Proof.Gen.KernelIdeal.Points
import proofs.«141764_j30940944400974_2_alg».proof.Proof.Gen.KernelIdeal.Frame
import proofs.«141764_j30940944400974_2_alg».proof.Proof.Gen.ReferenceIdeal
import proofs.«141764_j30940944400974_2_alg».proof.Proof.Gen.Pre_finite_inputs
import proofs.«141764_j30940944400974_2_alg».proof.Proof.Gen.KernelIdeal.Value
import proofs.«141764_j30940944400974_2_alg».proof.Proof.Gen.ReferenceIdeal.Run
import proofs.«141764_j30940944400974_2_alg».proof.Proof.Gen.ReferenceIdeal.Read
import proofs.«141764_j30940944400974_2_alg».proof.Proof.Spec
import proofs.«141764_j30940944400974_2_alg».proof.Proof.RefIsSpec
import proofs.«141764_j30940944400974_2_alg».proof.Proof.Payload
import proofs.«141764_j30940944400974_2_alg».proof.Proof.Blocks
import proofs.«141764_j30940944400974_2_alg».proof.Proof.Arrays
import Idealize.ShloMosaic.Adequacy
import Idealize.ShloMosaic.Init

noncomputable section

namespace Cert.Proof

open Idealize.ShloMosaic Idealize.SL.Sem Cert.Ottt

/-- The kernel as printed runs to the end without a fault and leaves its five argument arrays as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the arguments, the kernel ends with its three result arrays at the reset, the trace and
    the spike of the arguments, and the reference ends with its three results at the same three functions. -/
theorem algebraic : Cert.algebraic_KernelIdeal_ReferenceIdeal := by
  intro m ρ m' ρ' _ hagree
  refine ⟨fun c => reset (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => trace (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => spike (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Ottt.Kernel.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Read.val_main_v12_eq, Cert.Ottt.Ref.reset_eq, a0, a1, a3, a4]
  · rw [Cert.ReferenceIdeal.Read.val_main_v15_eq, Cert.Ottt.Ref.trace_eq, a0, a2]
  · rw [Cert.ReferenceIdeal.Read.val_main_v9_eq, Cert.Ottt.Ref.spike_eq, a0, a1, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
